-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x96 .f32) (main_arg5 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S50000x96 .f32) (main_arg1 : FVec F S800000 .f32) (main_arg2 : FVec F S96x96 .f32) (main_arg3 : FVec F S96 .f32) (main_arg4 : FVec F S96x96 .f32) (main_arg5 : FVec F S96 .f32) (main_arg6 : IVec S800000 32) (main_arg7 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S5000x96 : Shape := ⟨2, ![5000, 96]⟩

abbrev nBuf : Space → Nat
  | .hbm => 33
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S800000, .i32⟩
  | .hbm, ⟨7, _⟩ => ⟨S800000, .i32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S800000x96, .f32⟩
  | .hbm, ⟨19, _⟩ => ⟨S800000x96, .f32⟩
  | .hbm, ⟨20, _⟩ => ⟨S_, .f32⟩
  | .hbm, ⟨21, _⟩ => ⟨S50000x96, .f32⟩
  | .hbm, ⟨22, _⟩ => ⟨S800000x1, .i32⟩
  | .hbm, ⟨23, _⟩ => ⟨S50000x96, .f32⟩
  | .hbm, ⟨24, _⟩ => ⟨S50000x96, .bf16⟩
  | .hbm, ⟨25, _⟩ => ⟨S50000x96, .bf16⟩
  | .hbm, ⟨26, _⟩ => ⟨S96x96, .f32⟩
  | .hbm, ⟨27, _⟩ => ⟨S96x96, .bf16⟩
  | .hbm, ⟨28, _⟩ => ⟨S96x96, .f32⟩
  | .hbm, ⟨29, _⟩ => ⟨S96x96, .bf16⟩
  | .hbm, ⟨30, _⟩ => ⟨S1x96, .f32⟩
  | .hbm, ⟨31, _⟩ => ⟨S1x96, .f32⟩
  | .hbm, ⟨32, _⟩ => ⟨S50000x96, .f32⟩
  | .local _ .vmem, ⟨0, _⟩ => ⟨S5000x96, .bf16⟩
  | .local _ .vmem, ⟨1, _⟩ => ⟨S5000x96, .bf16⟩
  | .local _ .vmem, ⟨2, _⟩ => ⟨S5000x96, .bf16⟩
  | .local _ .vmem, ⟨3, _⟩ => ⟨S5000x96, .bf16⟩
  | .local _ .vmem, ⟨4, _⟩ => ⟨S96x96, .bf16⟩
  | .local _ .vmem, ⟨5, _⟩ => ⟨S1x96, .f32⟩
  | .local _ .vmem, ⟨6, _⟩ => ⟨S96x96, .bf16⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bitsLt_bf16_f32 : FTy.bits .bf16 < FTy.bits .f32
  transposes_S96x96_S96x96_1_0 : S96x96.Transposes [1, 0] S96x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .bf16 = 32 ∨ (Rect.block (s := S50000x96) S5000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .bf16 = 32 ∨ (Rect.block (s := S50000x96) S5000x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v13) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 51
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S800000, .i32⟩
  | .hbm, ⟨7, _⟩ => ⟨S800000, .i32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S800000x96, .f32⟩
  | .hbm, ⟨19, _⟩ => ⟨S800000x96, .f32⟩
  | .hbm, ⟨20, _⟩ => ⟨S_, .f32⟩
  | .hbm, ⟨21, _⟩ => ⟨S50000x96, .f32⟩
  | .hbm, ⟨22, _⟩ => ⟨S800000x1, .i32⟩
  | .hbm, ⟨23, _⟩ => ⟨S50000x96, .f32⟩
  | .hbm, ⟨24, _⟩ => ⟨S50000x96, .f32⟩
  | .hbm, ⟨25, _⟩ => ⟨S96x96, .f32⟩
  | .hbm, ⟨26, _⟩ => ⟨S50000x96, .f32⟩
  | .hbm, ⟨27, _⟩ => ⟨S1x96, .f32⟩
  | .hbm, ⟨28, _⟩ => ⟨S50000x96, .f32⟩
  | .hbm, ⟨29, _⟩ => ⟨S50000x96, .f32⟩
  | .hbm, ⟨30, _⟩ => ⟨S_, .f32⟩
  | .hbm, ⟨31, _⟩ => ⟨S50000x96, .f32⟩
  | .hbm, ⟨32, _⟩ => ⟨S50000x96, .i1⟩
  | .hbm, ⟨33, _⟩ => ⟨S_, .f32⟩
  | .hbm, ⟨34, _⟩ => ⟨S50000x96, .f32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S96x96, .f32⟩
  | .hbm, ⟨39, _⟩ => ⟨S50000x96, .f32⟩
  | .hbm, ⟨40, _⟩ => ⟨S1x96, .f32⟩
  | .hbm, ⟨41, _⟩ => ⟨S50000x96, .f32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .i1⟩
  | .hbm, ⟨46, _⟩ => ⟨S_, .f32⟩
  | .hbm, ⟨47, _⟩ => ⟨S50000x96, .f32⟩
  | .hbm, ⟨48, _⟩ => ⟨S50000x96, .f32⟩
  | .hbm, ⟨49, _⟩ => ⟨S50000x96, .f32⟩
  | .hbm, ⟨50, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The function both programs compute, entry by entry, on the extended reals.

  Write `ego` for the node features ([50000, 96]), `side` for the neighbourhood sum of the same shape (the sparse
  adjacency product, which both programs obtain by the same gather, scaling and scatter-add, and which is carried here
  as an array in its own right), `W1`, `W2` for the two [96, 96] weight matrices stored as (output, input), and `b1`,
  `b2` for the two biases. Entry (r, j) of the result is

      leaky (Σ_k (ego[r,k] + side[r,k]) · W1[j,k] + b1[j])  +  leaky (Σ_k (ego[r,k] · side[r,k]) · W2[j,k] + b2[j]),

  where `leaky x` is `x` when `x ≥ 0` and `c · x` otherwise, `c` the single-precision number nearest 0.01. Only sums and
  products of extended reals occur, in one arrangement, so no finiteness of the inputs is needed anywhere.
-/
import Idealize.ShloMosaic.PureOps.Ideal
import Idealize.ShloMosaic.Lib.ValueIdx

noncomputable section

namespace Cert.Agg

open Idealize.ShloMosaic Idealize.ShloMosaic.ValueIdx

/-- The leaky rectifier: the identity on `x ≥ 0`, multiplication by the slope (the single-precision number nearest
    0.01, kept as its binary word) elsewhere. The comparison is the extended reals' order, so `⊤` is kept and `⊥` is scaled. -/
def leaky (x : EReal) : EReal :=
  Scalar.select (Ideal.cmp .oge x (Ideal.ofBits .f32 0x00000000#32)) x (Ideal.ofBits .f32 0x3C23D70A#32 * x)

/-- Entry (r, j) of a linear layer `u · Wᵀ + b`: row `r` of `u` against row `j` of `W`, plus `b[j]`. -/
def lin (u : (⟨2, ![50000, 96]⟩ : Shape).Idx → EReal) (W : (⟨2, ![96, 96]⟩ : Shape).Idx → EReal)
    (b : (⟨1, ![96]⟩ : Shape).Idx → EReal) (r : Fin 50000) (j : Fin 96) : EReal :=
  (∑ k : Fin 96, u (ix2 r k) * W (ix2 j k)) + b (ix1 j)

/-- Entry (r, j) of the result: the rectified linear layer of `ego + side` plus the rectified linear layer of
    `ego · side` (entrywise sum and product). -/
def outAt (ego side : (⟨2, ![50000, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) (r : Fin 50000) (j : Fin 96) : EReal :=
  leaky (lin (fun x => ego x + side x) W1 b1 r j) + leaky (lin (fun x => ego x * side x) W2 b2 r j)

/-- The whole result array. -/
def G (ego side : (⟨2, ![50000, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) : (⟨2, ![50000, 96]⟩ : Shape).Idx → EReal :=
  fun i => outAt ego side W1 b1 W2 b2 (i 0) (i 1)

/-- The result array at the index with coordinates (r, j). -/
theorem G_ix2 (ego side : (⟨2, ![50000, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) (r : Fin 50000) (j : Fin 96) :
    G ego side W1 b1 W2 b2 (ix2 r j) = outAt ego side W1 b1 W2 b2 r j := rfl

end Cert.Agg

end
-- ==== Proof.KernelBody.lean ====
/-
  The kernel body's stored value, read entry by entry.

  On one grid point the body loads a [5000, 96] block of `ego` and of `side`, the two transposed weight matrices
  ([96, 96], input by output) and the two biases as [1, 96] rows, forms `ego + side` and `ego · side` entrywise, multiplies
  each by its weight matrix into a zero accumulator, adds the bias row to every row, rectifies, and stores the sum of
  the two branches. Read at (p, q): a matrix product into a zero accumulator is the sum over k of the left operand at
  (p, k) times the right operand at (k, q); the broadcast bias row at (p, q) is the row at (0, q).
-/
import proofs.«143560_j61203283968808_2_alg».proof.Proof.Gen.KernelIdeal.Skeleton
import proofs.«143560_j61203283968808_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Agg.Body

open Cert.KernelIdeal Cert.KernelIdeal.Gen Idealize.ShloMosaic Idealize.ShloMosaic.ValueIdx

/-- The matrix product's dimension numbers: rows by contraction times contraction by columns. -/
abbrev D := dot_S5000x96_S96x96_S5000x96_1_0_0_1_n_n

theorem lhs0 (i : S5000x96.Idx) (q : D.contr.Idx) : (D.lhsIdx i q 0).val = (i 0).val := by
  unfold DotDims.lhsIdx
  rw [dif_neg (show ¬(0 : Fin S5000x96.rank) ∈ D.lhsBatch by decide), dif_pos (show (0 : Fin S5000x96.rank) ∈ D.lhsNonContracting by decide)]
  rfl
theorem lhs1 (i : S5000x96.Idx) (q : D.contr.Idx) : (D.lhsIdx i q 1).val = (q ⟨0, by decide⟩).val :=
  D.lhsIdx_val_of_single rfl i q
theorem rhs0 (i : S5000x96.Idx) (q : D.contr.Idx) : (D.rhsIdx i q 0).val = (q ⟨0, by decide⟩).val :=
  D.rhsIdx_val_of_single rfl i q
theorem rhs1 (i : S5000x96.Idx) (q : D.contr.Idx) : (D.rhsIdx i q 1).val = (i 1).val := by
  unfold DotDims.rhsIdx
  rw [dif_neg (show ¬(1 : Fin S96x96.rank) ∈ D.rhsBatch by decide), dif_pos (show (1 : Fin S96x96.rank) ∈ D.rhsNonContracting by decide)]
  rfl

/-- A matrix product into the zero accumulator, read at (p, q): the sum over k of left (p, k) times right (k, q). -/
theorem matmul_zero_apply (u : FVec Ideal S5000x96 .bf16) (w : FVec Ideal S96x96 .bf16) (p : Fin 5000) (q : Fin 96) :
    matmul D none u w (constant (F := Ideal) S5000x96 .f32 0x00000000#32) (ix2 p q) = ∑ k : Fin 96, u (ix2 p k) * w (ix2 k q) := by
  refine (Ideal.matmul_constant_zero_apply D none u w (ix2 p q)).trans ?_
  rw [← Equiv.sum_comp (contrEquiv1 D 96 rfl rfl).symm]
  refine Finset.sum_congr rfl fun k _ => ?_
  have hk := contrEquiv1_symm_val D 96 rfl rfl k
  have el : D.lhsIdx (ix2 p q) ((contrEquiv1 D 96 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 96 rfl rfl).symm k) = ix2 k q := funext fun a => Fin.ext (by
    match a with
    | ⟨0, _⟩ => exact (rhs0 _ _).trans hk
    | ⟨1, _⟩ => exact rhs1 _ _)
  rw [el, er]

/-- One branch before the rectifier, read at (p, q): the product plus the bias row's entry q. -/
theorem branch_apply (u : FVec Ideal S5000x96 .bf16) (w : FVec Ideal S96x96 .bf16) (b : FVec Ideal S1x96 .f32)
    (p : Fin 5000) (q : Fin 96) :
    addf (matmul D none u w (constant (F := Ideal) S5000x96 .f32 0x00000000#32)) (broadcastTo S5000x96 b broadcasts_S1x96_S5000x96) (ix2 p q)
      = (∑ k : Fin 96, u (ix2 p k) * w (ix2 k q)) + b (ix2 (0 : Fin 1) q) := by
  show matmul D none u w (constant (F := Ideal) S5000x96 .f32 0x00000000#32) (ix2 p q) + broadcastTo S5000x96 b broadcasts_S1x96_S5000x96 (ix2 p q) = _
  rw [matmul_zero_apply, broadcastTo_1b_ab_apply]

/-- THE STORED VALUE at (p, q): the two rectified branches added, each a sum over k against a column of its
    (transposed) weight block, plus its bias row's entry. -/
theorem stored_apply (e s : FVec Ideal S5000x96 .bf16) (w1 w2 : FVec Ideal S96x96 .bf16) (c1 c2 : FVec Ideal S1x96 .f32)
    (p : Fin 5000) (q : Fin 96) :
    k0_pay1 (F := Ideal) e s w1 w2 c1 c2 (ix2 p q)
      = leaky ((∑ k : Fin 96, (e (ix2 p k) + s (ix2 p k)) * w1 (ix2 k q)) + c1 (ix2 (0 : Fin 1) q))
        + leaky ((∑ k : Fin 96, (e (ix2 p k) * s (ix2 p k)) * w2 (ix2 k q)) + c2 (ix2 (0 : Fin 1) q)) := by
  have h1 := branch_apply (addf e s) w1 c1 p q
  have h2 := branch_apply (mulf e s) w2 c2 p q
  unfold k0_pay1
  simp only [shapeCast_self]
  refine Eq.trans (b := leaky (addf (matmul D none (addf e s) w1 (constant (F := Ideal) S5000x96 .f32 0x00000000#32)) (broadcastTo S5000x96 c1 broadcasts_S1x96_S5000x96) (ix2 p q))
      + leaky (addf (matmul D none (mulf e s) w2 (constant (F := Ideal) S5000x96 .f32 0x00000000#32)) (broadcastTo S5000x96 c2 broadcasts_S1x96_S5000x96) (ix2 p q))) rfl ?_
  rw [h1, h2]
  rfl

end Cert.Agg.Body

end
-- ==== Proof.KernelEntry.lean ====
/-
  The arrays the kernel's region finds, in terms of the program's arguments.

  Before the region the host rounds `ego` and the neighbourhood sum `side` to the narrower format (the identity on the
  extended reals), transposes each weight matrix (so the entry (k, q) the region finds is the weight's entry (q, k)),
  and reshapes each bias from [96] to one row [1, 96] (so the row's entry (0, q) is the bias's entry q).

  `side` is the sparse adjacency product: for every edge the row of `ego` at the edge's column index (negative indices
  wrapped by the number of rows) scaled by the edge's weight, added into the row at the edge's row index. It is named
  here (`sideK`, the host operations' term; `sideArr`, the array the region finds) and never opened: nothing in the
  comparison of the two programs depends on what a gather or a scatter-add computes.
-/
import proofs.«143560_j61203283968808_2_alg».proof.Proof.Gen.KernelIdeal.Frame
import Idealize.ShloMosaic.Lib.StableHlo.Run
import Idealize.ShloMosaic.Lib.ValueIdx
import Idealize.ShloMosaic.Lib.ValueLayout

noncomputable section

namespace Cert.Agg.Kernel

open Cert.KernelIdeal Cert.KernelIdeal.Gen Idealize.ShloMosaic Idealize.ShloMosaic.TcCoe Idealize.SL.Sem
open Idealize.ShloMosaic.ValueIdx Idealize.ShloMosaic.StableHlo

/-- The neighbourhood sum as the host computes it from `ego` (x0), the edge weights (x1), the edge row indices (x6)
    and the edge column indices (x7), in the narrower format. -/
def sideK (x0 : (⟨S50000x96, .f32⟩ : BufTy).Contents (Elt Ideal)) (x1 : (⟨S800000, .f32⟩ : BufTy).Contents (Elt Ideal))
    (x6 x7 : (⟨S800000, .i32⟩ : BufTy).Contents (Elt Ideal)) : (⟨S50000x96, .bf16⟩ : BufTy).Contents (Elt Ideal) :=
  truncf .bf16
    (Host.scatterAdd scatter_S50000x96_S800000x1_S800000x96_1_0_0_1
      (broadcastInDim S50000x96 ![] bcast_S_S50000x96 (constant (F := Ideal) S_ .f32 0x00000000#32))
      (broadcastInDim S800000x1 ![0] bcast_S800000_S800000x1_0 x6)
      (mulf (broadcastInDim S800000x96 ![0, 1] bcast_S800000x1_S800000x96_0_1 (broadcastInDim S800000x1 ![0] bcast_S800000_S800000x1_0 x1))
        (Host.gather gather_S50000x96_S800000x1_S800000x96_1_0_n_n_0_1_196 x0
          (broadcastInDim S800000x1 ![0] bcast_S800000_S800000x1_0
            (select (cmpi .slt x7 (broadcastInDim S800000 ![] bcast_S_S800000 (constantI S_ 32 0#32)))
              (addi x7 (broadcastInDim S800000 ![] bcast_S_S800000 (constantI S_ 32 50000#32))) x7)))))
    bitsLt_bf16_f32

variable (m : (ℓ : Loc nD τ sig) → Buf (Elt Ideal) ℓ)

/-- The neighbourhood sum as the region finds it: the array its second window stages. -/
def sideArr (c : Dev nD) : S50000x96.Idx → EReal := V m c (Pipeline.arrRef spec0 1)

set_option maxHeartbeats 1000000 in

/-- That array is the host operations' term of the arguments. -/
theorem sideArr_eq (c : Dev nD) :
    sideArr m c = sideK (m ((c : Thread nD τ).loc main_arg0)) (m ((c : Thread nD τ).loc main_arg1)) (m ((c : Thread nD τ).loc main_arg6)) (m ((c : Thread nD τ).loc main_arg7)) := by
  unfold sideArr sideK
  show (V m c main_v14 : S50000x96.Idx → EReal) = _
  dsimp only [Gen.V, Gen.hostOps0]; after_results_simp <;> rfl

/-- `ego` in the narrower format is `ego`. -/
theorem entry_ego (c : Dev nD) : (V m c main_v13 : S50000x96.Idx → EReal) = m ((c : Thread nD τ).loc main_arg0) := by
  dsimp only [Gen.V, Gen.hostOps0]; after_results; rfl

/-- The first weight matrix as the region finds it, at (k, q), is the argument at (q, k). -/
theorem entry_w1 (c : Dev nD) (k q : Fin 96) :
    (V m c main_v16 : S96x96.Idx → EReal) (ix2 k q) = (m ((c : Thread nD τ).loc main_arg2) : S96x96.Idx → EReal) (ix2 q k) := by
  have e : (V m c main_v16 : S96x96.Idx → EReal)
      = transpose S96x96 [1, 0] (m ((c : Thread nD τ).loc main_arg2)) transposes_S96x96_S96x96_1_0 := by
    dsimp only [Gen.V, Gen.hostOps0]; after_results; rfl
  rw [e]
  exact transpose_ix2_apply _ _ k q

/-- The second weight matrix as the region finds it, at (k, q), is the argument at (q, k). -/
theorem entry_w2 (c : Dev nD) (k q : Fin 96) :
    (V m c main_v18 : S96x96.Idx → EReal) (ix2 k q) = (m ((c : Thread nD τ).loc main_arg4) : S96x96.Idx → EReal) (ix2 q k) := by
  have e : (V m c main_v18 : S96x96.Idx → EReal)
      = transpose S96x96 [1, 0] (m ((c : Thread nD τ).loc main_arg4)) transposes_S96x96_S96x96_1_0 := by
    dsimp only [Gen.V, Gen.hostOps0]; after_results; rfl
  rw [e]
  exact transpose_ix2_apply _ _ k q

/-- The first bias as one row, at (0, q), is the argument at q. -/
theorem entry_b1 (c : Dev nD) (q : Fin 96) :
    (V m c main_v19 : S1x96.Idx → EReal) (ix2 (0 : Fin 1) q) = (m ((c : Thread nD τ).loc main_arg3) : S96.Idx → EReal) (ix1 q) := by
  have e : (V m c main_v19 : S1x96.Idx → EReal) = shapeCast S1x96 (m ((c : Thread nD τ).loc main_arg3)) shapeCasts_S96_S1x96 := by
    dsimp only [Gen.V, Gen.hostOps0]; after_results; rfl
  rw [e]
  exact shapeCast_a_1a_apply _ _ (0 : Fin 1) q

/-- The second bias as one row, at (0, q), is the argument at q. -/
theorem entry_b2 (c : Dev nD) (q : Fin 96) :
    (V m c main_v20 : S1x96.Idx → EReal) (ix2 (0 : Fin 1) q) = (m ((c : Thread nD τ).loc main_arg5) : S96.Idx → EReal) (ix1 q) := by
  have e : (V m c main_v20 : S1x96.Idx → EReal) = shapeCast S1x96 (m ((c : Thread nD τ).loc main_arg5)) shapeCasts_S96_S1x96 := by
    dsimp only [Gen.V, Gen.hostOps0]; after_results; rfl
  rw [e]
  exact shapeCast_a_1a_apply _ _ (0 : Fin 1) q

end Cert.Agg.Kernel

end
-- ==== Proof.KernelBlocks.lean ====
/-
  Which entries of its array each window's block holds at a grid point.

  The grid has ten points. At point t the two row-blocked inputs (`ego`, `side`) hold rows 5000·t … 5000·t + 4999 of their
  arrays; the weight and bias windows hold their whole (small) arrays at every point. A block's entry at coordinate x
  is the array's entry at block index × block size + x on each axis.
-/
import proofs.«143560_j61203283968808_2_alg».proof.Proof.KernelEntry
import Idealize.ShloMosaic.Lib.Pipeline.Value

noncomputable section

namespace Cert.Agg.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block indices over the ten grid points: the two row-blocked inputs and the output are at block row t, column
    block 0; the weights and biases stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A block of the second window (rows of `side`) read at x, for ANY contents of the window's array: the array's entry
    in row 5000·t + x₀, column x₁. Stated over a variable array so that nothing about the array's contents is used. -/
theorem rows_read1 (c : Dev nD) (A : Buf (Elt Ideal) ((c : Thread nD τ).loc (Pipeline.arrRef spec0 1))) (t : Fin cfg0.N)
    (x : S5000x96.Idx) (i : S50000x96.Idx) (h0 : (i 0).val = t.val * 5000 + (x 0).val) (h1 : (i 1).val = (x 1).val) :
    (((cfg0.win 1).blk t).view.read (Elt Ideal) A : FVec Ideal S5000x96 .bf16) x = (A : S50000x96.Idx → EReal) i := by
  obtain ⟨-, -, e0, e1, -⟩ := block_index t
  rw [View.read_apply]
  refine congrArg (A : S50000x96.Idx → EReal) (funext fun a => Fin.ext ?_)
  match a with
  | ⟨0, _⟩ => show win0_1.index t (0 : Fin 2) * 5000 + 1 * (x 0).val = (i 0).val; omega
  | ⟨1, _⟩ => show win0_1.index t (1 : Fin 2) * 96 + 1 * (x 1).val = (i 1).val; omega

/-- The `ego` block at point t: its entry x is the argument's entry in row 5000·t + x₀, column x₁. -/
theorem ego_block (c : Dev nD) (t : Fin cfg0.N) (x : S5000x96.Idx) (i : S50000x96.Idx)
    (h0 : (i 0).val = t.val * 5000 + (x 0).val) (h1 : (i 1).val = (x 1).val) :
    (iblk m c 0 t : FVec Ideal S5000x96 .bf16) x = (m ((c : Thread nD τ).loc main_arg0) : S50000x96.Idx → EReal) i := by
  obtain ⟨e0, e1, -⟩ := block_index t
  refine Eq.trans ?_ (congrFun (entry_ego m c) i)
  unfold iblk
  rw [View.read_apply]
  show (V m c main_v13 : S50000x96.Idx → EReal) (((cfg0.win 0).blk t).view.emb x) = (V m c main_v13 : S50000x96.Idx → EReal) i
  refine congrArg (V m c main_v13 : S50000x96.Idx → EReal) (funext fun a => Fin.ext ?_)
  match a with
  | ⟨0, _⟩ => show win0_0.index t (0 : Fin 2) * 5000 + 1 * (x 0).val = (i 0).val; omega
  | ⟨1, _⟩ => show win0_0.index t (1 : Fin 2) * 96 + 1 * (x 1).val = (i 1).val; omega

/-- The `side` block at point t likewise, of the array the region finds. -/
theorem side_block (c : Dev nD) (t : Fin cfg0.N) (x : S5000x96.Idx) (i : S50000x96.Idx)
    (h0 : (i 0).val = t.val * 5000 + (x 0).val) (h1 : (i 1).val = (x 1).val) :
    (iblk m c 1 t : FVec Ideal S5000x96 .bf16) x = sideArr m c i := by
  unfold iblk sideArr
  exact rows_read1 c (V m c (Pipeline.arrRef spec0 1)) t x i h0 h1

/-- The first weight block at any point is the whole transposed matrix: its entry (k, q) is the argument's (q, k). -/
theorem w1_block (c : Dev nD) (t : Fin cfg0.N) (k q : Fin 96) :
    (iblk m c 2 t : FVec Ideal S96x96 .bf16) (ix2 k q) = (m ((c : Thread nD τ).loc main_arg2) : S96x96.Idx → EReal) (ix2 q k) := by
  obtain ⟨-, -, -, -, e0, e1, -⟩ := block_index t
  refine Eq.trans ?_ (entry_w1 m c k q)
  unfold iblk
  rw [View.read_apply]
  show (V m c main_v16 : S96x96.Idx → EReal) (((cfg0.win 2).blk t).view.emb (ix2 k q)) = (V m c main_v16 : S96x96.Idx → EReal) (ix2 k q)
  refine congrArg (V m c main_v16 : S96x96.Idx → EReal) (funext fun a => Fin.ext ?_)
  match a with
  | ⟨0, _⟩ => show win0_2.index t (0 : Fin 2) * 96 + 1 * k.val = k.val; omega
  | ⟨1, _⟩ => show win0_2.index t (1 : Fin 2) * 96 + 1 * q.val = q.val; omega

/-- The second weight block likewise. -/
theorem w2_block (c : Dev nD) (t : Fin cfg0.N) (k q : Fin 96) :
    (iblk m c 4 t : FVec Ideal S96x96 .bf16) (ix2 k q) = (m ((c : Thread nD τ).loc main_arg4) : S96x96.Idx → EReal) (ix2 q k) := by
  obtain ⟨-, -, -, -, -, -, -, -, e0, e1, -⟩ := block_index t
  refine Eq.trans ?_ (entry_w2 m c k q)
  unfold iblk
  rw [View.read_apply]
  show (V m c main_v18 : S96x96.Idx → EReal) (((cfg0.win 4).blk t).view.emb (ix2 k q)) = (V m c main_v18 : S96x96.Idx → EReal) (ix2 k q)
  refine congrArg (V m c main_v18 : S96x96.Idx → EReal) (funext fun a => Fin.ext ?_)
  match a with
  | ⟨0, _⟩ => show win0_4.index t (0 : Fin 2) * 96 + 1 * k.val = k.val; omega
  | ⟨1, _⟩ => show win0_4.index t (1 : Fin 2) * 96 + 1 * q.val = q.val; omega

/-- The first bias block at any point is the bias row: its entry (0, q) is the argument's entry q. -/
theorem b1_block (c : Dev nD) (t : Fin cfg0.N) (q : Fin 96) :
    (iblk m c 3 t : FVec Ideal S1x96 .f32) (ix2 (0 : Fin 1) q) = (m ((c : Thread nD τ).loc main_arg3) : S96.Idx → EReal) (ix1 q) := by
  obtain ⟨-, -, -, -, -, -, e0, e1, -⟩ := block_index t
  refine Eq.trans ?_ (entry_b1 m c q)
  unfold iblk
  rw [View.read_apply]
  show (V m c main_v19 : S1x96.Idx → EReal) (((cfg0.win 3).blk t).view.emb (ix2 (0 : Fin 1) q)) = (V m c main_v19 : S1x96.Idx → EReal) (ix2 (0 : Fin 1) q)
  refine congrArg (V m c main_v19 : S1x96.Idx → EReal) (funext fun a => Fin.ext ?_)
  match a with
  | ⟨0, _⟩ => show win0_3.index t (0 : Fin 2) * 1 + 1 * 0 = 0; omega
  | ⟨1, _⟩ => show win0_3.index t (1 : Fin 2) * 96 + 1 * q.val = q.val; omega

/-- The second bias block likewise. -/
theorem b2_block (c : Dev nD) (t : Fin cfg0.N) (q : Fin 96) :
    (iblk m c 5 t : FVec Ideal S1x96 .f32) (ix2 (0 : Fin 1) q) = (m ((c : Thread nD τ).loc main_arg5) : S96.Idx → EReal) (ix1 q) := by
  obtain ⟨-, -, -, -, -, -, -, -, -, -, e0, e1, -⟩ := block_index t
  refine Eq.trans ?_ (entry_b2 m c q)
  unfold iblk
  rw [View.read_apply]
  show (V m c main_v20 : S1x96.Idx → EReal) (((cfg0.win 5).blk t).view.emb (ix2 (0 : Fin 1) q)) = (V m c main_v20 : S1x96.Idx → EReal) (ix2 (0 : Fin 1) q)
  refine congrArg (V m c main_v20 : S1x96.Idx → EReal) (funext fun a => Fin.ext ?_)
  match a with
  | ⟨0, _⟩ => show win0_5.index t (0 : Fin 2) * 1 + 1 * 0 = 0; omega
  | ⟨1, _⟩ => show win0_5.index t (1 : Fin 2) * 96 + 1 * q.val = q.val; omega

end Cert.Agg.Kernel

end
-- ==== Proof.KernelValue.lean ====
/-
  The kernel's result array after the run, as one function of the argument arrays.

  Point t of the ten-point grid works on rows 5000·t … 5000·t + 4999 of `ego` and of `side` and on the whole of the two
  (transposed) weight matrices and the two bias rows, and writes back rows 5000·t … 5000·t + 4999 of the result. So what
  point t writes back is the block of those rows of the specified function `Cert.Agg.G`; the ten blocks tile the
  [50000, 96] result, which therefore ends holding `G` of the arguments, with `side` the array the region finds.
-/
import proofs.«143560_j61203283968808_2_alg».proof.Proof.Gen.KernelIdeal.Value
import proofs.«143560_j61203283968808_2_alg».proof.Proof.KernelBody
import proofs.«143560_j61203283968808_2_alg».proof.Proof.KernelBlocks

noncomputable section

namespace Cert.Agg.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- With the loaded blocks read as rows n·5000 … of `E` and `S`, the transposed weights and the bias rows, the stored
    value at y is `G` at the entry in row n·5000 + y₀, column y₁. -/
theorem point_eq (E S : S50000x96.Idx → EReal) (W1 W2 : S96x96.Idx → EReal) (B1 B2 : S96.Idx → EReal)
    (e s : FVec Ideal S5000x96 .bf16) (w1 w2 : FVec Ideal S96x96 .bf16) (c1 c2 : FVec Ideal S1x96 .f32) (n : Nat)
    (he : ∀ (x : S5000x96.Idx) (i : S50000x96.Idx), (i 0).val = n * 5000 + (x 0).val → (i 1).val = (x 1).val → e x = E i)
    (hs : ∀ (x : S5000x96.Idx) (i : S50000x96.Idx), (i 0).val = n * 5000 + (x 0).val → (i 1).val = (x 1).val → s x = S i)
    (hw1 : ∀ k q : Fin 96, w1 (ix2 k q) = W1 (ix2 q k)) (hw2 : ∀ k q : Fin 96, w2 (ix2 k q) = W2 (ix2 q k))
    (hc1 : ∀ q : Fin 96, c1 (ix2 (0 : Fin 1) q) = B1 (ix1 q)) (hc2 : ∀ q : Fin 96, c2 (ix2 (0 : Fin 1) q) = B2 (ix1 q))
    (y : S5000x96.Idx) (i : S50000x96.Idx) (h0 : (i 0).val = n * 5000 + (y 0).val) (h1 : (i 1).val = (y 1).val) :
    k0_pay1 (F := Ideal) e s w1 w2 c1 c2 y = G E S W1 B1 W2 B2 i := by
  obtain ⟨p, q, rfl⟩ : ∃ (p : Fin 5000) (q : Fin 96), y = ix2 p q := ⟨y 0, y 1, eq_ix2 y⟩
  obtain ⟨r, j, rfl⟩ : ∃ (r : Fin 50000) (j : Fin 96), i = ix2 r j := ⟨i 0, i 1, eq_ix2 i⟩
  obtain rfl : j = q := Fin.ext h1
  have e1 : ∀ k : Fin 96, e (ix2 p k) = E (ix2 r k) := fun k => he (ix2 p k) (ix2 r k) h0 rfl
  have e2 : ∀ k : Fin 96, s (ix2 p k) = S (ix2 r k) := fun k => hs (ix2 p k) (ix2 r k) h0 rfl
  rw [Body.stored_apply, G_ix2]
  unfold outAt lin
  simp only [e1, e2, hw1, hw2, hc1, hc2]

/-! ## From the ten blocks to the array -/

/-- The result array: the specified function of the arguments, with `side` the array the region finds. -/
abbrev result (c : Dev nD) : S50000x96.Idx → EReal :=
  G (m ((c : Thread nD τ).loc main_arg0)) (sideArr m c) (m ((c : Thread nD τ).loc main_arg2)) (m ((c : Thread nD τ).loc main_arg3)) (m ((c : Thread nD τ).loc main_arg4)) (m ((c : Thread nD τ).loc main_arg5))

/-- What point t writes back is the block of rows 5000·t … of `result`. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := block_index t
  rw [Cert.KernelIdeal.Value.flushed6]
  unfold out0_6
  rw [View.canon_unit_zero hz]
  simp only [View.ld_unit_zero (S := S5000x96) hz, View.ld_unit_zero (S := S96x96) hz, View.ld_unit_zero (S := S1x96) hz]
  funext y
  show k0_pay1 (F := Ideal) (iblk m c 0 t) (iblk m c 1 t) (iblk m c 2 t) (iblk m c 4 t) (iblk m c 3 t) (iblk m c 5 t) y
    = G (m ((c : Thread nD τ).loc main_arg0)) (sideArr m c) (m ((c : Thread nD τ).loc main_arg2)) (m ((c : Thread nD τ).loc main_arg3)) (m ((c : Thread nD τ).loc main_arg4)) (m ((c : Thread nD τ).loc main_arg5)) (((cfg0.win 6).blk t).view.emb y)
  refine point_eq (m ((c : Thread nD τ).loc main_arg0)) (sideArr m c) (m ((c : Thread nD τ).loc main_arg2)) (m ((c : Thread nD τ).loc main_arg4)) (m ((c : Thread nD τ).loc main_arg3)) (m ((c : Thread nD τ).loc main_arg5))
    (iblk m c 0 t) (iblk m c 1 t) (iblk m c 2 t) (iblk m c 4 t) (iblk m c 3 t) (iblk m c 5 t) t.val
    (ego_block m c t) (side_block m c t) (w1_block m c t) (w2_block m c t) (b1_block m c t) (b2_block m c t)
    y (((cfg0.win 6).blk t).view.emb y) ?_ ?_
  · show win0_6.index t (0 : Fin 2) * 5000 + 1 * (y 0).val = t.val * 5000 + (y 0).val; omega
  · show win0_6.index t (1 : Fin 2) * 96 + 1 * (y 1).val = (y 1).val; omega

/-- An index is in point t's block exactly when each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v21).slice (win0_6.rect t)).set ↔ _
  rw [View.set_slice_whole, Rect.mem_set_unit]
  exact Iff.rfl

/-- Every entry of the result lies in some point's block: row r is in the block of point r / 5000. -/
theorem cover (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  have hN : grid0.N = 10 := N_0
  obtain ⟨t, ht⟩ : ∃ t : Fin cfg0.N, t.val = (i 0).val / 5000 := ⟨⟨(i 0).val / 5000, by show (i 0).val / 5000 < grid0.N; omega⟩, rfl⟩
  obtain ⟨-, -, -, -, -, -, -, -, -, -, -, -, e0, e1⟩ := block_index t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- So the result array ends holding `result`. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Agg.Kernel

end
-- ==== Proof.RefValue.lean ====
/-
  The reference program's result, read entry by entry, is the specified function `Cert.Agg.G` of its arguments, with
  the neighbourhood sum `side` the array its gather / scatter-add stage produces (never opened here).

  Each of the two branches is a `dot_general` of a [50000, 96] array with a transposed [96, 96] weight matrix, a bias
  broadcast along the rows, and the rectifier written as compare / multiply / select. Read at (r, j): the contraction is
  the sum over k of the left operand at (r, k) times the transposed weight at (k, j), which is the weight at (j, k); the
  broadcast bias at (r, j) is the bias at j.
-/
import proofs.«143560_j61203283968808_2_alg».proof.Proof.Gen.ReferenceIdeal.Read
import proofs.«143560_j61203283968808_2_alg».proof.Proof.Spec

noncomputable section

namespace Cert.Agg.Ref

open Cert.ReferenceIdeal Cert.ReferenceIdeal.Gen Cert.ReferenceIdeal.Read Idealize.ShloMosaic Idealize.ShloMosaic.ValueIdx

variable (x0 : (⟨S50000x96, .f32⟩ : BufTy).Contents (Elt Ideal)) (x1 : (⟨S800000, .f32⟩ : BufTy).Contents (Elt Ideal))
  (x2 : (⟨S96x96, .f32⟩ : BufTy).Contents (Elt Ideal)) (x3 : (⟨S96, .f32⟩ : BufTy).Contents (Elt Ideal))
  (x4 : (⟨S96x96, .f32⟩ : BufTy).Contents (Elt Ideal)) (x5 : (⟨S96, .f32⟩ : BufTy).Contents (Elt Ideal))
  (x6 x7 : (⟨S800000, .i32⟩ : BufTy).Contents (Elt Ideal))

/-- The left operand's index of a contraction term: row r, column k. -/
theorem lidx_eq (r : Fin 50000) (j k : Fin 96) : lidx_main_v15 (ix2 r j) k = ix2 r k :=
  funext fun a => Fin.ext (by match a with | ⟨0, _⟩ => rfl | ⟨1, _⟩ => rfl)

/-- The transposed weight at (k, j) is the weight at (j, k). -/
theorem widx_eq (r : Fin 50000) (j k : Fin 96) : idx_main_v14 (ridx_main_v15 (ix2 r j) k) = ix2 j k :=
  funext fun a => Fin.ext (by match a with | ⟨0, _⟩ => rfl | ⟨1, _⟩ => rfl)

/-- The bias broadcast along the rows, at (r, j), is the bias at j. -/
theorem bidx_eq (r : Fin 50000) (j : Fin 96) : idx_main_v16 (idx_main_v17 (ix2 r j)) = ix1 j :=
  funext fun a => Fin.ext (by match a with | ⟨0, _⟩ => rfl)

/-- The first branch before the rectifier: the linear layer of `ego + side`. -/
theorem sum_branch (r : Fin 50000) (j : Fin 96) :
    val_main_v18 (F := Ideal) x0 x1 x2 x3 x6 x7 (ix2 r j)
      = lin (fun x => x0 x + val_main_v12 (F := Ideal) x0 x1 x6 x7 x) x2 x3 r j := by
  rw [val_main_v18_apply, val_main_v15_apply, val_main_v17_apply, val_main_v16_apply, bidx_eq]
  unfold lin
  refine congrArg (· + _) (Finset.sum_congr rfl fun k _ => ?_)
  rw [val_main_v13_apply, val_main_v14_apply, lidx_eq, widx_eq]
  rfl

/-- The second branch before the rectifier: the linear layer of `ego · side`. -/
theorem prod_branch (r : Fin 50000) (j : Fin 96) :
    val_main_v29 (F := Ideal) x0 x1 x4 x5 x6 x7 (ix2 r j)
      = lin (fun x => x0 x * val_main_v12 (F := Ideal) x0 x1 x6 x7 x) x4 x5 r j := by
  rw [val_main_v29_apply, val_main_v26_apply, val_main_v28_apply, val_main_v27_apply]
  unfold lin
  refine congrArg₂ (· + ·) (Finset.sum_congr rfl fun k _ => ?_) (congrArg x5 ?_)
  · rw [val_main_v24_apply, val_main_v25_apply]
    exact congrArg₂ (· * ·) (congrArg (fun i => x0 i * val_main_v12 (F := Ideal) x0 x1 x6 x7 i) (lidx_eq r j k))
      (congrArg x4 (widx_eq r j k))
  · exact bidx_eq r j

/-- The zero the rectifier compares with, and its slope, are the same words broadcast. -/
theorem zero1 (i : S50000x96.Idx) : val_main_v19 (F := Ideal) i = Ideal.ofBits .f32 0x00000000#32 := by
  rw [val_main_v19_apply, val_main_cst_1_apply]; rfl
theorem slope1 (i : S50000x96.Idx) : val_main_v21 (F := Ideal) i = Ideal.ofBits .f32 0x3C23D70A#32 := by
  rw [val_main_v21_apply, val_main_cst_2_apply]; rfl
theorem zero2 (i : S50000x96.Idx) : val_main_v30 (F := Ideal) i = Ideal.ofBits .f32 0x00000000#32 := by
  rw [val_main_v30_apply, val_main_cst_3_apply]; rfl
theorem slope2 (i : S50000x96.Idx) : val_main_v32 (F := Ideal) i = Ideal.ofBits .f32 0x3C23D70A#32 := by
  rw [val_main_v32_apply, val_main_cst_4_apply]; rfl

/-- THE REFERENCE IS `G`: its last stage, as a function of the arguments, is the specified function with `side` the
    scatter-add stage's array. -/
theorem result_eq :
    val_main_v35 (F := Ideal) x0 x1 x2 x3 x4 x5 x6 x7
      = G x0 (val_main_v12 (F := Ideal) x0 x1 x6 x7) x2 x3 x4 x5 := by
  funext i
  obtain ⟨r, j, rfl⟩ : ∃ (r : Fin 50000) (j : Fin 96), i = ix2 r j := ⟨i 0, i 1, eq_ix2 i⟩
  rw [G_ix2, val_main_v35_apply, val_main_v23_apply, val_main_v34_apply, val_main_v20_apply, val_main_v22_apply,
    val_main_v31_apply, val_main_v33_apply, zero1, slope1, zero2, slope2, sum_branch, prod_branch]
  rfl

end Cert.Agg.Ref

end
-- ==== Proof.SideValue.lean ====
/-
  The two programs compute the neighbourhood sum `side` by the same host operations of the same arguments: the edge
  column indices wrapped, the rows of `ego` gathered at them, each scaled by its edge's weight, and the scaled rows
  added into a zero array at the edge row indices. The kernel's program then rounds the result to the narrower format,
  which is the identity on the extended reals.

  The two terms are compared operation by operation, operand by operand; the gather and the scatter-add are compared
  as applications of one function to equal operands and are never opened.
-/
import proofs.«143560_j61203283968808_2_alg».proof.Proof.KernelEntry
import proofs.«143560_j61203283968808_2_alg».proof.Proof.Gen.ReferenceIdeal.Read

noncomputable section

namespace Cert.Agg.Side

open Idealize.ShloMosaic

/-- Rounding to a narrower format is the identity on arrays of extended reals. -/
theorem truncf_id {s : Shape} {φ ψ : FTy} (A : FVec Ideal s φ) (h : ψ.bits < φ.bits) : (truncf ψ A h : FVec Ideal s ψ) = A := rfl

/-- A scatter-add of equal operands under equal dimension numbers. -/
theorem scatterAdd_congr {s si su : Shape} {w : Nat} {φ : FTy} (d d' : ScatterDims s si su) (hd : d = d')
    (a a' : FVec Ideal s φ) (ha : a = a') (b b' : IVec si w) (hb : b = b') (u u' : FVec Ideal su φ) (hu : u = u') :
    Host.scatterAdd d a b u = Host.scatterAdd d' a' b' u' := by
  subst hd ha hb hu; rfl

/-- A gather of equal operands under equal dimension numbers. -/
theorem gather_congr {s si so : Shape} {w : Nat} {α : Type} (d d' : GatherDims s si so) (hd : d = d')
    (a a' : s.Idx → α) (ha : a = a') (b b' : IVec si w) (hb : b = b') :
    Host.gather d a b = Host.gather d' a' b' := by
  subst hd ha hb; rfl

/-- The two programs' scatter dimension numbers are the same record. -/
theorem scatterDims_eq : Cert.KernelIdeal.scatter_S50000x96_S800000x1_S800000x96_1_0_0_1
    = Cert.ReferenceIdeal.scatter_S50000x96_S800000x1_S800000x96_1_0_0_1 := rfl

/-- The two programs' gather dimension numbers are the same record. -/
theorem gatherDims_eq : Cert.KernelIdeal.gather_S50000x96_S800000x1_S800000x96_1_0_n_n_0_1_196
    = Cert.ReferenceIdeal.gather_S50000x96_S800000x1_S800000x96_1_0_n_n_0_1_196 := rfl

open Cert.ReferenceIdeal Cert.ReferenceIdeal.Gen Cert.ReferenceIdeal.Read in
/-- THE SAME `side`: the kernel program's term is the reference's scatter-add stage. -/
theorem sideK_eq (x0 : (⟨S50000x96, .f32⟩ : BufTy).Contents (Elt Ideal)) (x1 : (⟨S800000, .f32⟩ : BufTy).Contents (Elt Ideal))
    (x6 x7 : (⟨S800000, .i32⟩ : BufTy).Contents (Elt Ideal)) :
    Cert.Agg.Kernel.sideK x0 x1 x6 x7 = val_main_v12 (F := Ideal) x0 x1 x6 x7 := by
  unfold Cert.Agg.Kernel.sideK
  refine (truncf_id (φ := .f32) (ψ := .bf16) _ Cert.KernelIdeal.Gen.bitsLt_bf16_f32).trans ?_
  unfold val_main_v12
  refine scatterAdd_congr _ _ scatterDims_eq _ _ rfl _ _ rfl _ _ ?_
  unfold val_main_v9
  refine congrArg₂ mulf rfl ?_
  unfold val_main_v7
  exact gather_congr _ _ gatherDims_eq _ _ rfl _ _ rfl

end Cert.Agg.Side

end
-- ==== Proof.lean ====
/-
  The bi-interaction graph aggregator, kernel against reference, on the extended reals.

  Both programs first form the neighbourhood sum `side` (the sparse adjacency matrix times the node features `ego`: for
  every edge, the row of `ego` at the edge's column index scaled by the edge's weight, added into the row at the edge's
  row index) by the same host operations, and then compute, for every node r and output feature j,

      leaky (Σ_k (ego[r,k] + side[r,k]) · W1[j,k] + b1[j])  +  leaky (Σ_k (ego[r,k] · side[r,k]) · W2[j,k] + b2[j]),

  `leaky` the rectifier with slope the single-precision number nearest 0.01. The reference does this with two whole
  [50000, 96] × [96, 96] products against the transposed weights; the kernel transposes the weights on the host, rounds
  `ego`, `side` and the weights to a narrower format (the identity on the extended reals), and runs ten grid points,
  each doing the two products for 5000 rows into a zero accumulator. A product read at one entry is the same sum over
  k on both sides, so the two results agree entry by entry; no rearrangement of a sum is needed and the finiteness of
  the inputs is never used. The kernel's idealization rewrote nothing, so there is nothing to preserve.

  The pieces: `Cert.Agg.G` (the function, Proof/Spec.lean); the reference's last stage is `G` (Proof/RefValue.lean);
  the kernel body's stored value at an entry (Proof/KernelBody.lean); the arrays the region finds and the blocks its
  windows hold (Proof/KernelEntry.lean, Proof/KernelBlocks.lean); the kernel's result array is `G`
  (Proof/KernelValue.lean); the two programs' `side` are one array (Proof/SideValue.lean).
-/
import proofs.«143560_j61203283968808_2_alg».proof.Defs
import proofs.«143560_j61203283968808_2_alg».proof.Proof.Gen.Kernel
import proofs.«143560_j61203283968808_2_alg».proof.Proof.Gen.Kernel.Skeleton
import proofs.«143560_j61203283968808_2_alg».proof.Proof.Gen.Kernel.Launch
import proofs.«143560_j61203283968808_2_alg».proof.Proof.Gen.Kernel.Points
import proofs.«143560_j61203283968808_2_alg».proof.Proof.Gen.Kernel.Frame
import proofs.«143560_j61203283968808_2_alg».proof.Proof.Gen.KernelIdeal
import proofs.«143560_j61203283968808_2_alg».proof.Proof.Gen.KernelIdeal.Skeleton
import proofs.«143560_j61203283968808_2_alg».proof.Proof.Gen.KernelIdeal.Launch
import proofs.«143560_j61203283968808_2_alg».proof.Proof.Gen.KernelIdeal.Points
import proofs.«143560_j61203283968808_2_alg».proof.Proof.Gen.KernelIdeal.Frame
import proofs.«143560_j61203283968808_2_alg».proof.Proof.Gen.ReferenceIdeal
import proofs.«143560_j61203283968808_2_alg».proof.Proof.Gen.Pre_finite_inputs
import proofs.«143560_j61203283968808_2_alg».proof.Proof.Gen.KernelIdeal.Value
import proofs.«143560_j61203283968808_2_alg».proof.Proof.Gen.ReferenceIdeal.Run
import proofs.«143560_j61203283968808_2_alg».proof.Proof.Gen.ReferenceIdeal.Read
import proofs.«143560_j61203283968808_2_alg».proof.Proof.KernelValue
import proofs.«143560_j61203283968808_2_alg».proof.Proof.RefValue
import proofs.«143560_j61203283968808_2_alg».proof.Proof.SideValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `G` of the arguments: the
    kernel's by its ten row blocks, the reference's by reading its last stage, and the two `side` arrays are one. -/
theorem algebraic : Cert.algebraic_KernelIdeal_ReferenceIdeal := by
  intro m ρ m' ρ' _ hagree
  refine ⟨fun c => Cert.Agg.Kernel.result m c, Cert.Agg.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v35_eq, Cert.Agg.Ref.result_eq, a0, a1, a2, a3, a4, a5, a6, a7,
    ← Cert.Agg.Side.sideK_eq, ← Cert.Agg.Kernel.sideArr_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
